-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x64x512 : Shape := ⟨4, ![2, 8, 64, 512]⟩
abbrev S2x8x512x64 : Shape := ⟨4, ![2, 8, 512, 64]⟩
abbrev S2x8x512x512 : Shape := ⟨4, ![2, 8, 512, 512]⟩
abbrev S1x1x64x512 : Shape := ⟨4, ![1, 1, 64, 512]⟩
abbrev S1x1x512x64 : Shape := ⟨4, ![1, 1, 512, 64]⟩
abbrev S1x1x512x512 : Shape := ⟨4, ![1, 1, 512, 512]⟩
abbrev S64x512 : Shape := ⟨2, ![64, 512]⟩
abbrev S512x64 : Shape := ⟨2, ![512, 64]⟩
abbrev S512x512 : Shape := ⟨2, ![512, 512]⟩
abbrev S1x512 : Shape := ⟨2, ![1, 512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x64x512, .f32⟩
  | .hbm, ⟨3, _⟩ => ⟨S2x8x512x64, .f32⟩
  | .hbm, ⟨4, _⟩ => ⟨S2x8x512x512, .f32⟩
  | .local _ .vmem, ⟨0, _⟩ => ⟨S1x1x64x512, .f32⟩
  | .local _ .vmem, ⟨1, _⟩ => ⟨S1x1x64x512, .f32⟩
  | .local _ .vmem, ⟨2, _⟩ => ⟨S1x1x512x64, .f32⟩
  | .local _ .vmem, ⟨3, _⟩ => ⟨S1x1x512x64, .f32⟩
  | .local _ .vmem, ⟨4, _⟩ => ⟨S1x1x512x512, .f32⟩
  | .local _ .vmem, ⟨5, _⟩ => ⟨S1x1x512x512, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2x512x8x64_S2x8x64x512_0_2_3_1 : S2x512x8x64.Transposes [0, 2, 3, 1] S2x8x64x512
  transposes_S2x512x8x64_S2x8x512x64_0_2_1_3 : S2x512x8x64.Transposes [0, 2, 1, 3] S2x8x512x64
  inb_S1x1x64x512_S1x1x64x512_0_0_0_0 : ∀ a, (![0, 0, 0, 0] : Fin 4 → Nat) a + S1x1x64x512.size a ≤ S1x1x64x512.size a
  h_S1x1x64x512 : 0 < S1x1x64x512.numel
  shapeCasts_S1x1x64x512_S64x512 : S1x1x64x512.ShapeCasts S64x512
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  slices_S64x512_o0_0_S1x512 : S64x512.Slices ![0, 0] S1x512
  slices_S512x64_o0_0_S512x1 : S512x64.Slices ![0, 0] S512x1
  broadcasts_S512x1_S512x512 : S512x1.Broadcasts S512x512
  broadcasts_S1x512_S512x512 : S1x512.Broadcasts S512x512
  slices_S64x512_o1_0_S1x512 : S64x512.Slices ![1, 0] S1x512
  slices_S512x64_o0_1_S512x1 : S512x64.Slices ![0, 1] S512x1
  slices_S64x512_o2_0_S1x512 : S64x512.Slices ![2, 0] S1x512
  slices_S512x64_o0_2_S512x1 : S512x64.Slices ![0, 2] S512x1
  slices_S64x512_o3_0_S1x512 : S64x512.Slices ![3, 0] S1x512
  slices_S512x64_o0_3_S512x1 : S512x64.Slices ![0, 3] S512x1
  slices_S64x512_o4_0_S1x512 : S64x512.Slices ![4, 0] S1x512
  slices_S512x64_o0_4_S512x1 : S512x64.Slices ![0, 4] S512x1
  slices_S64x512_o5_0_S1x512 : S64x512.Slices ![5, 0] S1x512
  slices_S512x64_o0_5_S512x1 : S512x64.Slices ![0, 5] S512x1
  slices_S64x512_o6_0_S1x512 : S64x512.Slices ![6, 0] S1x512
  slices_S512x64_o0_6_S512x1 : S512x64.Slices ![0, 6] S512x1
  slices_S64x512_o7_0_S1x512 : S64x512.Slices ![7, 0] S1x512
  slices_S512x64_o0_7_S512x1 : S512x64.Slices ![0, 7] S512x1
  slices_S64x512_o8_0_S1x512 : S64x512.Slices ![8, 0] S1x512
  slices_S512x64_o0_8_S512x1 : S512x64.Slices ![0, 8] S512x1
  slices_S64x512_o9_0_S1x512 : S64x512.Slices ![9, 0] S1x512
  slices_S512x64_o0_9_S512x1 : S512x64.Slices ![0, 9] S512x1
  slices_S64x512_o10_0_S1x512 : S64x512.Slices ![10, 0] S1x512
  slices_S512x64_o0_10_S512x1 : S512x64.Slices ![0, 10] S512x1
  slices_S64x512_o11_0_S1x512 : S64x512.Slices ![11, 0] S1x512
  slices_S512x64_o0_11_S512x1 : S512x64.Slices ![0, 11] S512x1
  slices_S64x512_o12_0_S1x512 : S64x512.Slices ![12, 0] S1x512
  slices_S512x64_o0_12_S512x1 : S512x64.Slices ![0, 12] S512x1
  slices_S64x512_o13_0_S1x512 : S64x512.Slices ![13, 0] S1x512
  slices_S512x64_o0_13_S512x1 : S512x64.Slices ![0, 13] S512x1
  slices_S64x512_o14_0_S1x512 : S64x512.Slices ![14, 0] S1x512
  slices_S512x64_o0_14_S512x1 : S512x64.Slices ![0, 14] S512x1
  slices_S64x512_o15_0_S1x512 : S64x512.Slices ![15, 0] S1x512
  slices_S512x64_o0_15_S512x1 : S512x64.Slices ![0, 15] S512x1
  slices_S64x512_o16_0_S1x512 : S64x512.Slices ![16, 0] S1x512
  slices_S512x64_o0_16_S512x1 : S512x64.Slices ![0, 16] S512x1
  slices_S64x512_o17_0_S1x512 : S64x512.Slices ![17, 0] S1x512
  slices_S512x64_o0_17_S512x1 : S512x64.Slices ![0, 17] S512x1
  slices_S64x512_o18_0_S1x512 : S64x512.Slices ![18, 0] S1x512
  slices_S512x64_o0_18_S512x1 : S512x64.Slices ![0, 18] S512x1
  slices_S64x512_o19_0_S1x512 : S64x512.Slices ![19, 0] S1x512
  slices_S512x64_o0_19_S512x1 : S512x64.Slices ![0, 19] S512x1
  slices_S64x512_o20_0_S1x512 : S64x512.Slices ![20, 0] S1x512
  slices_S512x64_o0_20_S512x1 : S512x64.Slices ![0, 20] S512x1
  slices_S64x512_o21_0_S1x512 : S64x512.Slices ![21, 0] S1x512
  slices_S512x64_o0_21_S512x1 : S512x64.Slices ![0, 21] S512x1
  slices_S64x512_o22_0_S1x512 : S64x512.Slices ![22, 0] S1x512
  slices_S512x64_o0_22_S512x1 : S512x64.Slices ![0, 22] S512x1
  slices_S64x512_o23_0_S1x512 : S64x512.Slices ![23, 0] S1x512
  slices_S512x64_o0_23_S512x1 : S512x64.Slices ![0, 23] S512x1
  slices_S64x512_o24_0_S1x512 : S64x512.Slices ![24, 0] S1x512
  slices_S512x64_o0_24_S512x1 : S512x64.Slices ![0, 24] S512x1
  slices_S64x512_o25_0_S1x512 : S64x512.Slices ![25, 0] S1x512
  slices_S512x64_o0_25_S512x1 : S512x64.Slices ![0, 25] S512x1
  slices_S64x512_o26_0_S1x512 : S64x512.Slices ![26, 0] S1x512
  slices_S512x64_o0_26_S512x1 : S512x64.Slices ![0, 26] S512x1
  slices_S64x512_o27_0_S1x512 : S64x512.Slices ![27, 0] S1x512
  slices_S512x64_o0_27_S512x1 : S512x64.Slices ![0, 27] S512x1
  slices_S64x512_o28_0_S1x512 : S64x512.Slices ![28, 0] S1x512
  slices_S512x64_o0_28_S512x1 : S512x64.Slices ![0, 28] S512x1
  slices_S64x512_o29_0_S1x512 : S64x512.Slices ![29, 0] S1x512
  slices_S512x64_o0_29_S512x1 : S512x64.Slices ![0, 29] S512x1
  slices_S64x512_o30_0_S1x512 : S64x512.Slices ![30, 0] S1x512
  slices_S512x64_o0_30_S512x1 : S512x64.Slices ![0, 30] S512x1
  slices_S64x512_o31_0_S1x512 : S64x512.Slices ![31, 0] S1x512
  slices_S512x64_o0_31_S512x1 : S512x64.Slices ![0, 31] S512x1
  slices_S64x512_o32_0_S1x512 : S64x512.Slices ![32, 0] S1x512
  slices_S512x64_o0_32_S512x1 : S512x64.Slices ![0, 32] S512x1
  slices_S64x512_o33_0_S1x512 : S64x512.Slices ![33, 0] S1x512
  slices_S512x64_o0_33_S512x1 : S512x64.Slices ![0, 33] S512x1
  slices_S64x512_o34_0_S1x512 : S64x512.Slices ![34, 0] S1x512
  slices_S512x64_o0_34_S512x1 : S512x64.Slices ![0, 34] S512x1
  slices_S64x512_o35_0_S1x512 : S64x512.Slices ![35, 0] S1x512
  slices_S512x64_o0_35_S512x1 : S512x64.Slices ![0, 35] S512x1
  slices_S64x512_o36_0_S1x512 : S64x512.Slices ![36, 0] S1x512
  slices_S512x64_o0_36_S512x1 : S512x64.Slices ![0, 36] S512x1
  slices_S64x512_o37_0_S1x512 : S64x512.Slices ![37, 0] S1x512
  slices_S512x64_o0_37_S512x1 : S512x64.Slices ![0, 37] S512x1
  slices_S64x512_o38_0_S1x512 : S64x512.Slices ![38, 0] S1x512
  slices_S512x64_o0_38_S512x1 : S512x64.Slices ![0, 38] S512x1
  slices_S64x512_o39_0_S1x512 : S64x512.Slices ![39, 0] S1x512
  slices_S512x64_o0_39_S512x1 : S512x64.Slices ![0, 39] S512x1
  slices_S64x512_o40_0_S1x512 : S64x512.Slices ![40, 0] S1x512
  slices_S512x64_o0_40_S512x1 : S512x64.Slices ![0, 40] S512x1
  slices_S64x512_o41_0_S1x512 : S64x512.Slices ![41, 0] S1x512
  slices_S512x64_o0_41_S512x1 : S512x64.Slices ![0, 41] S512x1
  slices_S64x512_o42_0_S1x512 : S64x512.Slices ![42, 0] S1x512
  slices_S512x64_o0_42_S512x1 : S512x64.Slices ![0, 42] S512x1
  slices_S64x512_o43_0_S1x512 : S64x512.Slices ![43, 0] S1x512
  slices_S512x64_o0_43_S512x1 : S512x64.Slices ![0, 43] S512x1
  slices_S64x512_o44_0_S1x512 : S64x512.Slices ![44, 0] S1x512
  slices_S512x64_o0_44_S512x1 : S512x64.Slices ![0, 44] S512x1
  slices_S64x512_o45_0_S1x512 : S64x512.Slices ![45, 0] S1x512
  slices_S512x64_o0_45_S512x1 : S512x64.Slices ![0, 45] S512x1
  slices_S64x512_o46_0_S1x512 : S64x512.Slices ![46, 0] S1x512
  slices_S512x64_o0_46_S512x1 : S512x64.Slices ![0, 46] S512x1
  slices_S64x512_o47_0_S1x512 : S64x512.Slices ![47, 0] S1x512
  slices_S512x64_o0_47_S512x1 : S512x64.Slices ![0, 47] S512x1
  slices_S64x512_o48_0_S1x512 : S64x512.Slices ![48, 0] S1x512
  slices_S512x64_o0_48_S512x1 : S512x64.Slices ![0, 48] S512x1
  slices_S64x512_o49_0_S1x512 : S64x512.Slices ![49, 0] S1x512
  slices_S512x64_o0_49_S512x1 : S512x64.Slices ![0, 49] S512x1
  slices_S64x512_o50_0_S1x512 : S64x512.Slices ![50, 0] S1x512
  slices_S512x64_o0_50_S512x1 : S512x64.Slices ![0, 50] S512x1
  slices_S64x512_o51_0_S1x512 : S64x512.Slices ![51, 0] S1x512
  slices_S512x64_o0_51_S512x1 : S512x64.Slices ![0, 51] S512x1
  slices_S64x512_o52_0_S1x512 : S64x512.Slices ![52, 0] S1x512
  slices_S512x64_o0_52_S512x1 : S512x64.Slices ![0, 52] S512x1
  slices_S64x512_o53_0_S1x512 : S64x512.Slices ![53, 0] S1x512
  slices_S512x64_o0_53_S512x1 : S512x64.Slices ![0, 53] S512x1
  slices_S64x512_o54_0_S1x512 : S64x512.Slices ![54, 0] S1x512
  slices_S512x64_o0_54_S512x1 : S512x64.Slices ![0, 54] S512x1
  slices_S64x512_o55_0_S1x512 : S64x512.Slices ![55, 0] S1x512
  slices_S512x64_o0_55_S512x1 : S512x64.Slices ![0, 55] S512x1
  slices_S64x512_o56_0_S1x512 : S64x512.Slices ![56, 0] S1x512
  slices_S512x64_o0_56_S512x1 : S512x64.Slices ![0, 56] S512x1
  slices_S64x512_o57_0_S1x512 : S64x512.Slices ![57, 0] S1x512
  slices_S512x64_o0_57_S512x1 : S512x64.Slices ![0, 57] S512x1
  slices_S64x512_o58_0_S1x512 : S64x512.Slices ![58, 0] S1x512
  slices_S512x64_o0_58_S512x1 : S512x64.Slices ![0, 58] S512x1
  slices_S64x512_o59_0_S1x512 : S64x512.Slices ![59, 0] S1x512
  slices_S512x64_o0_59_S512x1 : S512x64.Slices ![0, 59] S512x1
  slices_S64x512_o60_0_S1x512 : S64x512.Slices ![60, 0] S1x512
  slices_S512x64_o0_60_S512x1 : S512x64.Slices ![0, 60] S512x1
  slices_S64x512_o61_0_S1x512 : S64x512.Slices ![61, 0] S1x512
  slices_S512x64_o0_61_S512x1 : S512x64.Slices ![0, 61] S512x1
  slices_S64x512_o62_0_S1x512 : S64x512.Slices ![62, 0] S1x512
  slices_S512x64_o0_62_S512x1 : S512x64.Slices ![0, 62] S512x1
  slices_S64x512_o63_0_S1x512 : S64x512.Slices ![63, 0] S1x512
  slices_S512x64_o0_63_S512x1 : S512x64.Slices ![0, 63] S512x1
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x512.size a ≤ S2x8x64x512.size a
  hwx0_0 : ∀ i : grid0.Coords, EltTy.bits .f32 = 32 ∨ (Rect.block (s := S2x8x64x512) S1x1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x64.size a ≤ S2x8x512x64.size a
  hwx0_1 : ∀ i : grid0.Coords, EltTy.bits .f32 = 32 ∨ (Rect.block (s := S2x8x512x64) S1x1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S2x8x512x512.size a
  hwx0_2 : ∀ i : grid0.Coords, EltTy.bits .f32 = 32 ∨ (Rect.block (s := S2x8x512x512) S1x1x512x512.size (cc0_transform_2 i) (hinb0_2 i)).WholeWords (EltTy.packing .f32)

variable [Facts₀]

abbrev win0_0 : Pipeline.Window sig grid0 :=
  Pipeline.Window.ofSpec (Memref.whole main_v0) S1x1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S2x1x512x8x64 : Shape := ⟨5, ![2, 1, 512, 8, 64]⟩
abbrev S2x512x1x8x64 : Shape := ⟨5, ![2, 512, 1, 8, 64]⟩
abbrev S2x512x512x8x64 : Shape := ⟨5, ![2, 512, 512, 8, 64]⟩
abbrev S_ : Shape := ⟨0, ![]⟩
abbrev S2x512x512x8 : Shape := ⟨4, ![2, 512, 512, 8]⟩
abbrev S2x8x512x512 : Shape := ⟨4, ![2, 8, 512, 512]⟩

abbrev nBuf : Space → Nat
  | .hbm => 14
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x1x512x8x64, .f32⟩
  | .hbm, ⟨3, _⟩ => ⟨S2x512x1x8x64, .f32⟩
  | .hbm, ⟨4, _⟩ => ⟨S2x512x512x8x64, .f32⟩
  | .hbm, ⟨5, _⟩ => ⟨S2x512x512x8x64, .f32⟩
  | .hbm, ⟨6, _⟩ => ⟨S2x512x512x8x64, .f32⟩
  | .hbm, ⟨7, _⟩ => ⟨S2x512x512x8x64, .f32⟩
  | .hbm, ⟨8, _⟩ => ⟨S_, .f32⟩
  | .hbm, ⟨9, _⟩ => ⟨S2x512x512x8, .f32⟩
  | .hbm, ⟨10, _⟩ => ⟨S_, .f32⟩
  | .hbm, ⟨11, _⟩ => ⟨S2x512x512x8, .f32⟩
  | .hbm, ⟨12, _⟩ => ⟨S2x512x512x8, .f32⟩
  | .hbm, ⟨13, _⟩ => ⟨S2x8x512x512, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S2x512x8x64_S2x1x512x8x64_0_2_3_4 : S2x512x8x64.BroadcastsInDim S2x1x512x8x64 (![0, 2, 3, 4] : Fin 4 → Fin S2x1x512x8x64.rank)
  bcast_S2x512x8x64_S2x512x1x8x64_0_1_3_4 : S2x512x8x64.BroadcastsInDim S2x512x1x8x64 (![0, 1, 3, 4] : Fin 4 → Fin S2x512x1x8x64.rank)
  bcast_S2x1x512x8x64_S2x512x512x8x64_0_1_2_3_4 : S2x1x512x8x64.BroadcastsInDim S2x512x512x8x64 (![0, 1, 2, 3, 4] : Fin 5 → Fin S2x512x512x8x64.rank)
  bcast_S2x512x1x8x64_S2x512x512x8x64_0_1_2_3_4 : S2x512x1x8x64.BroadcastsInDim S2x512x512x8x64 (![0, 1, 2, 3, 4] : Fin 5 → Fin S2x512x512x8x64.rank)
  reducesTo_S2x512x512x8x64_S2x512x512x8_d4 : S2x512x512x8x64.ReducesTo [4] S2x512x512x8
  h_S_ : 0 < S_.numel
  bcast_S_S2x512x512x8 : S_.BroadcastsInDim S2x512x512x8 (![] : Fin 0 → Fin S2x512x512x8.rank)
  transposes_S2x512x512x8_S2x8x512x512_0_3_1_2 : S2x512x512x8.Transposes [0, 3, 1, 2] S2x8x512x512

variable [Facts₀]

class Facts : Prop extends Facts₀ where

variable [Facts]
-- ==== Proof.AbsDiffSum.lean ====
/-
  Two laws of the extended reals behind the L1 attention scores
      attn[b, h, j, i] = -(1/8) · Σ_d |q[b, i, h, d] - k[b, j, h, d]|.
  The absolute value is written as the float operations spell it, max x (-x).
  • The absolute value of a difference does not depend on the order of its two terms: one program subtracts the
    key from the query, the other the query from the key. On the extended reals x - y is x + (-y) with
    ⊤ + ⊥ = ⊥, so -(x - y) = y - x fails at equal infinities; the absolute values agree all the same
    (both differences are then ⊥, of absolute value ⊤), which a case split on the two arguments shows.
    No finiteness of the inputs is used.
  • A sum accumulated one term after the other from a start value, ((z + f 0) + f 1) + … + f (n-1), is z plus the
    sum of the terms: addition on the extended reals is associative (and commutative), infinities included.
-/
import Idealize.ShloMosaic.PureOps.Ideal

noncomputable section

namespace Cert.L1Scores

/-- |a - b| = |b - a| on all of the extended reals, the absolute value written max x (-x). For two reals it is
    -(x - y) = y - x; when one argument is infinite both differences are infinite, and when both are the same
    infinity both differences are ⊥: in every such case the two absolute values are ⊤. -/
theorem abs_sub_comm (a b : EReal) : max (a - b) (-(a - b)) = max (b - a) (-(b - a)) := by
  induction a using EReal.rec with
  | bot => induction b using EReal.rec <;> simp
  | top => induction b using EReal.rec <;> simp
  | coe x =>
    induction b using EReal.rec with
    | bot => simp
    | top => simp
    | coe y =>
      rw [← EReal.coe_sub, ← EReal.coe_sub, ← EReal.coe_neg, ← EReal.coe_neg, neg_sub, neg_sub, max_comm]

/-- The running sum: start from z and add f 0, f 1, …, f (n-1), one after the other. -/
def runSum (z : EReal) (f : ℕ → EReal) : ℕ → EReal
  | 0 => z
  | n + 1 => runSum z f n + f n

/-- The running sum after n terms is the start value plus the sum of those n terms. -/
theorem runSum_eq (z : EReal) (f : ℕ → EReal) (n : ℕ) : runSum z f n = z + ∑ i ∈ Finset.range n, f i := by
  induction n with
  | zero => simp [runSum]
  | succ n ih => rw [runSum, ih, Finset.sum_range_succ, add_assoc]

/-- The same with the terms indexed by Fin n: a term function on Fin n, extended by 0 past n, summed over the first n
    naturals, is its sum over Fin n. -/
theorem runSum_fin (z : EReal) (n : ℕ) (g : Fin n → EReal) :
    runSum z (fun i => if h : i < n then g ⟨i, h⟩ else 0) n = z + ∑ d : Fin n, g d := by
  rw [runSum_eq, Finset.sum_range]
  refine congrArg (z + ·) (Finset.sum_congr rfl fun d _ => ?_)
  rw [dif_pos d.isLt]

end Cert.L1Scores

end
-- ==== Proof.KernelBlock.lean ====
/-
  What the kernel body leaves in its output block, as a function of its two input blocks.
  The body holds a block Q of shape [64, 512] (width d down the sublanes, query position i along the lanes) and a block K
  of shape [512, 64] (key position j down the sublanes, width d along the lanes). Its Python loop over the width is
  unrolled at trace time: trip d slices row d of Q and column d of K, broadcasts the column along the lanes and the row
  down the sublanes, and adds |K[j, d] - Q[d, i]| onto an accumulator that starts at zero; after the 64 trips the
  accumulator is multiplied by the scale -(1/8). So entry (j, i) of the block is
      -(1/8) · (((0 + |K[j, 0] - Q[0, i]|) + |K[j, 1] - Q[1, i]|) + … + |K[j, 63] - Q[63, i]|).
  The 64 trips are stated ONCE, as a function of the trip number (`trip`), and the accumulator as a recursion over the
  number of trips done (`acc`); the printed body, whose trips are written out one after the other, is that recursion
  at 64 by unfolding. Read at an index the recursion is a running sum of the trips' entries.
-/
import proofs.«149935_j36859409334845_2_alg».proof.Proof.Gen.KernelIdeal.Frame
import proofs.«149935_j36859409334845_2_alg».proof.Proof.AbsDiffSum
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

variable {F : FTy → Type} [FloatOps F]

/-- The whole-block rectangle starts at the origin. -/
theorem origin4 : (![0, 0, 0, 0] : Fin 4 → Nat) = fun _ => 0 := funext fun a => by fin_cases a <;> rfl

/-- Row d of a [64, 512] block is inside it, for every d below 64. -/
theorem slicesRow (d : ℕ) (hd : d < 64) : S64x512.Slices ![d, 0] S1x512 :=
  ⟨rfl, fun a => match a with
    | ⟨0, _⟩ => (by show d + 1 ≤ 64; omega)
    | ⟨1, _⟩ => (by show 0 + 512 ≤ 512; omega)⟩

/-- Column d of a [512, 64] block is inside it, for every d below 64. -/
theorem slicesCol (d : ℕ) (hd : d < 64) : S512x64.Slices ![0, d] S512x1 :=
  ⟨rfl, fun a => match a with
    | ⟨0, _⟩ => (by show 0 + 512 ≤ 512; omega)
    | ⟨1, _⟩ => (by show d + 1 ≤ 64; omega)⟩

/-- Trip d of the unrolled loop over the width: column d of K broadcast along the lanes, minus row d of Q broadcast
    down the sublanes, in absolute value — the array of |K[j, d] - Q[d, i]| over (j, i). -/
def trip (Q : FVec F S64x512 .f32) (K : FVec F S512x64 .f32) (d : ℕ) (hd : d < 64) : FVec F S512x512 .f32 :=
  absf (subf (broadcastTo S512x512 (extractStridedSlice S512x1 ![0, d] K (slicesCol d hd)) broadcasts_S512x1_S512x512)
    (broadcastTo S512x512 (extractStridedSlice S1x512 ![d, 0] Q (slicesRow d hd)) broadcasts_S1x512_S512x512))

/-- The accumulator after the first n trips: zero, then one trip added after the other. -/
def acc (Q : FVec F S64x512 .f32) (K : FVec F S512x64 .f32) : (n : ℕ) → n ≤ 64 → FVec F S512x512 .f32
  | 0, _ => broadcast S512x512 (Scalar.ofBits .f32 0x00000000#32)
  | n + 1, h => addf (acc Q K n (Nat.le_of_succ_le h)) (trip Q K n h)

/-- The block the body stores: the accumulator after all 64 trips, scaled, with two unit axes in front. -/
def stored (x0 : Vec F S1x1x64x512 .f32) (x1 : Vec F S1x1x512x64 .f32) : Vec F S1x1x512x512 .f32 :=
  shapeCast S1x1x512x512 (mulf (broadcast S512x512 (Scalar.ofBits .f32 0xBE000000#32))
    (acc (shapeCast S64x512 x0 shapeCasts_S1x1x64x512_S64x512) (shapeCast S512x64 x1 shapeCasts_S1x1x512x64_S512x64) 64 (Nat.le_refl 64)))
    shapeCasts_S512x512_S1x1x512x512

/-- What the body leaves in the output window's buffer is `stored` of the two input blocks: its one store covers the
    buffer, its loads read the input buffers whole, and the printed 64 trips are the recursion unfolded. -/
theorem out_eq_stored (x0 : Vec F S1x1x64x512 .f32) (x1 : Vec F S1x1x512x64 .f32) : out0_2 x0 x1 = stored x0 x1 := by
  unfold out0_2
  rw [View.canon_unit_zero origin4]
  simp only [View.ld_unit_zero (S := S1x1x64x512) origin4, View.ld_unit_zero (S := S1x1x512x64) origin4]
  rfl

end Cert.KernelIdeal.Block

end
-- ==== Proof.LibUnitAxes.lean ====
/-
  Three layout operations read at an index given by its coordinates, generic in the extents and the element type.
  • A shape cast that DROPS two leading unit axes, [1, 1, a, b] → [a, b], reads at (p, c) the operand at (0, 0, p, c); the
    cast that ADDS them, [a, b] → [1, 1, a, b], reads at (0, 0, p, c) the operand at (p, c): the row-major position of
    (0, 0, p, c) in [1, 1, a, b] is p·b + c, that of (p, c) in [a, b].
  • A column [a, 1] broadcast along the second axis to [a, b] reads at (p, c) the column's entry p, whatever c.
-/
import Idealize.ShloMosaic.Lib.ValueLayout

namespace Cert.LibUnitAxes

open Idealize.ShloMosaic Idealize.ShloMosaic.ValueIdx

variable {α : Type}

/-- [1, 1, a, b] cast to [a, b], at (p, c): the operand at (0, 0, p, c). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h (ix2 p c) (ix4 (0 : Fin 1) (0 : Fin 1) p c) (by
    rw [Shape.rowMajor_val_four, Shape.rowMajor_val_two]
    show (((0 * 1 + 0) * a + p.val) * b + c.val) = p.val * b + c.val
    simp only [Nat.zero_mul, Nat.zero_add])

/-- [a, b] cast to [1, 1, a, b], at (0, 0, p, c): the operand at (p, c). -/
theorem shapeCast_ab_11ab_apply {a b : ℕ} (x : (⟨2, ![a, b]⟩ : Shape).Idx → α)
    (h : (⟨2, ![a, b]⟩ : Shape).ShapeCasts ⟨4, ![1, 1, a, b]⟩) (p : Fin a) (c : Fin b) :
    shapeCast ⟨4, ![1, 1, a, b]⟩ x h (ix4 (0 : Fin 1) (0 : Fin 1) p c) = x (ix2 p c) :=
  shapeCast_apply x h (ix4 (0 : Fin 1) (0 : Fin 1) p c) (ix2 p c) (by
    rw [Shape.rowMajor_val_four, Shape.rowMajor_val_two]
    show p.val * b + c.val = (((0 * 1 + 0) * a + p.val) * b + c.val)
    simp only [Nat.zero_mul, Nat.zero_add])

/-- A column [a, 1] broadcast to [a, b], at (p, c): the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibUnitAxes
-- ==== Proof.KernelEntry.lean ====
/-
  Entry (j, i) of the block the kernel body stores, as a sum over the width.
  Trip d's array is |K[j, d] - Q[d, i]| at (j, i): the column broadcast reads the column's entry j, the row broadcast the
  row's entry i, and the two slices read column d of K and row d of Q. The accumulator after n trips is therefore the
  running sum of the first n such terms from zero, and the stored block's entry (0, 0, j, i) is
      -(1/8) · (0 + Σ_{d < 64} |x1[0, 0, j, d] - x0[0, 0, d, i]|)
  in the two loaded buffers x0 (the query block, [1, 1, 64, 512]) and x1 (the key block, [1, 1, 512, 64]): a running sum
  is the start value plus the sum of its terms.
-/
import proofs.«149935_j36859409334845_2_alg».proof.Proof.KernelBlock
import proofs.«149935_j36859409334845_2_alg».proof.Proof.LibUnitAxes

noncomputable section

namespace Cert.KernelIdeal.Block

open Cert.KernelIdeal Cert.KernelIdeal.Gen Idealize.ShloMosaic Idealize.ShloMosaic.ValueIdx Cert.L1Scores Cert.LibUnitAxes

/-- Entry (j, i) of trip d: |K[j, d] - Q[d, i]|. -/
theorem trip_apply (Q : FVec Ideal S64x512 .f32) (K : FVec Ideal S512x64 .f32) (d : ℕ) (hd : d < 64) (j i : Fin 512) :
    trip Q K d hd (ix2 j i)
      = FloatOps.absf (F := Ideal) (φ := .f32) (FloatOps.subf (F := Ideal) (φ := .f32) (K (ix2 j ⟨d, hd⟩)) (Q (ix2 ⟨d, hd⟩ i))) := by
  have hK : broadcastTo S512x512 (extractStridedSlice S512x1 ![0, d] K (slicesCol d hd)) broadcasts_S512x1_S512x512 (ix2 j i)
      = K (ix2 j ⟨d, hd⟩) :=
    (broadcastTo_a1_ab_apply _ _ j i).trans (slice2_axis1_apply d K (slicesCol d hd) j (0 : Fin 1) ⟨d, hd⟩ rfl)
  have hQ : broadcastTo S512x512 (extractStridedSlice S1x512 ![d, 0] Q (slicesRow d hd)) broadcasts_S1x512_S512x512 (ix2 j i)
      = Q (ix2 ⟨d, hd⟩ i) :=
    (broadcastTo_1b_ab_apply _ _ j i).trans (slice2_axis0_apply d Q (slicesRow d hd) (0 : Fin 1) i ⟨d, hd⟩ rfl)
  show FloatOps.absf (FloatOps.subf
      (broadcastTo S512x512 (extractStridedSlice S512x1 ![0, d] K (slicesCol d hd)) broadcasts_S512x1_S512x512 (ix2 j i))
      (broadcastTo S512x512 (extractStridedSlice S1x512 ![d, 0] Q (slicesRow d hd)) broadcasts_S1x512_S512x512 (ix2 j i))) = _
  rw [hK, hQ]

/-- Trip d's term at entry (j, i), in the loaded buffers: |x1[0, 0, j, d] - x0[0, 0, d, i]|. -/
def term (x0 : Vec Ideal S1x1x64x512 .f32) (x1 : Vec Ideal S1x1x512x64 .f32) (j i : Fin 512) (d : Fin 64) : EReal :=
  FloatOps.absf (F := Ideal) (φ := .f32) (FloatOps.subf (F := Ideal) (φ := .f32)
    (x1 (ix4 (0 : Fin 1) (0 : Fin 1) j d)) (x0 (ix4 (0 : Fin 1) (0 : Fin 1) d i)))

/-- The accumulator after n trips, at entry (j, i): the running sum of the first n terms from zero. -/
theorem acc_apply (x0 : Vec Ideal S1x1x64x512 .f32) (x1 : Vec Ideal S1x1x512x64 .f32) (j i : Fin 512) :
    ∀ (n : ℕ) (hn : n ≤ 64),
      acc (F := Ideal) (shapeCast S64x512 x0 shapeCasts_S1x1x64x512_S64x512) (shapeCast S512x64 x1 shapeCasts_S1x1x512x64_S512x64) n hn (ix2 j i)
        = runSum (Scalar.ofBits (F := Ideal) .f32 0x00000000#32) (fun d => if h : d < 64 then term x0 x1 j i ⟨d, h⟩ else 0) n
  | 0, _ => rfl
  | n + 1, hn => by
    show FloatOps.addf (F := Ideal) (φ := .f32)
        (acc (F := Ideal) (shapeCast S64x512 x0 shapeCasts_S1x1x64x512_S64x512) (shapeCast S512x64 x1 shapeCasts_S1x1x512x64_S512x64) n (Nat.le_of_succ_le hn) (ix2 j i))
        (trip (F := Ideal) (shapeCast S64x512 x0 shapeCasts_S1x1x64x512_S64x512) (shapeCast S512x64 x1 shapeCasts_S1x1x512x64_S512x64) n hn (ix2 j i)) = _
    rw [acc_apply x0 x1 j i n (Nat.le_of_succ_le hn), trip_apply, shapeCast_11ab_ab_apply, shapeCast_11ab_ab_apply]
    show _ = runSum _ _ n + (if h : n < 64 then term x0 x1 j i ⟨n, h⟩ else 0)
    rw [dif_pos (show n < 64 from hn)]
    rfl

/-- THE STORED BLOCK AT AN ENTRY: the scale times (zero plus the sum over the width of the terms). -/
theorem stored_apply (x0 : Vec Ideal S1x1x64x512 .f32) (x1 : Vec Ideal S1x1x512x64 .f32) (j i : Fin 512) :
    stored x0 x1 (ix4 (0 : Fin 1) (0 : Fin 1) j i)
      = FloatOps.mulf (F := Ideal) (φ := .f32) (Scalar.ofBits .f32 0xBE000000#32)
          (Scalar.ofBits (F := Ideal) .f32 0x00000000#32 + ∑ d : Fin 64, term x0 x1 j i d) := by
  unfold stored
  rw [shapeCast_ab_11ab_apply]
  show FloatOps.mulf (F := Ideal) (φ := .f32) (Scalar.ofBits .f32 0xBE000000#32)
      (acc (F := Ideal) (shapeCast S64x512 x0 shapeCasts_S1x1x64x512_S64x512) (shapeCast S512x64 x1 shapeCasts_S1x1x512x64_S512x64) 64 (Nat.le_refl 64) (ix2 j i)) = _
  rw [acc_apply, runSum_fin]

end Cert.KernelIdeal.Block

end
-- ==== Proof.Scores.lean ====
/-
  The L1 attention scores as ONE function of the two argument arrays, index by index:
      scores q k (b, h, j, i) = -(1/8) · (0 + Σ_{d < 64} |q[b, i, h, d] - k[b, j, h, d]|)
  for q, k of shape [2, 512, 8, 64] (batch, position, head, width) and a result of shape [2, 8, 512, 512] (batch, head,
  key position j, query position i). The scale -(1/8) = -1/sqrt 64 and the zero the sum starts from are kept as the
  float words both programs print (0xBE000000 and 0x00000000): the same word on both sides is never evaluated. The
  operations are the ideal instance's: extended reals, exact subtraction, |x| = max x (-x), exact sum and product.
-/
import Idealize.ShloMosaic.PureOps.Ideal
import Idealize.ShloMosaic.Lib.ValueIdx

noncomputable section

namespace Cert.L1Scores

open Idealize.ShloMosaic Idealize.ShloMosaic.ValueIdx

/-- The score of key position j against query position i, in batch b and head h. -/
def score (q k : (⟨4, ![2, 512, 8, 64]⟩ : Shape).Idx → EReal) (b : Fin 2) (h : Fin 8) (j i : Fin 512) : EReal :=
  FloatOps.mulf (F := Ideal) (φ := .f32) (FloatOps.ofBits .f32 0xBE000000#32)
    (FloatOps.ofBits (F := Ideal) .f32 0x00000000#32
      + ∑ d : Fin 64, FloatOps.absf (F := Ideal) (φ := .f32) (FloatOps.subf (F := Ideal) (φ := .f32) (q (ix4 b i h d)) (k (ix4 b j h d))))

/-- The whole array of scores: entry (b, h, j, i) is score b h j i. -/
def scores (q k : (⟨4, ![2, 512, 8, 64]⟩ : Shape).Idx → EReal) : (⟨4, ![2, 8, 512, 512]⟩ : Shape).Idx → EReal :=
  fun x => score q k ⟨(x 0).val, (x 0).isLt⟩ ⟨(x 1).val, (x 1).isLt⟩ ⟨(x 2).val, (x 2).isLt⟩ ⟨(x 3).val, (x 3).isLt⟩

/-- At an index given by its coordinates. -/
theorem scores_ix4 (q k : (⟨4, ![2, 512, 8, 64]⟩ : Shape).Idx → EReal) (b : Fin 2) (h : Fin 8) (j i : Fin 512) :
    scores q k (ix4 b h j i) = score q k b h j i := rfl

end Cert.L1Scores

end
-- ==== Proof.KernelArray.lean ====
/-
  From the blocks to the whole array, and the kernel's run.
  The region is entered after two host transposes: the query array as [2, 8, 64, 512] (batch, head, width, position) and
  the key array as [2, 8, 512, 64] (batch, head, position, width). The grid has one point per (batch b, head h); at that
  point the query window's block is rows (b, h, ·, ·) of the first, the key window's block rows (b, h, ·, ·) of the second,
  and the output window's block is rows (b, h, ·, ·) of the result [2, 8, 512, 512]. So what the point writes back,
      -(1/8) · (0 + Σ_d |keyblock[j, d] - queryblock[d, i]|)   at (j, i),
  is -(1/8) · (0 + Σ_d |k[b, j, h, d] - q[b, i, h, d]|), which is entry (b, h, j, i) of `scores q k`: the absolute value of
  a difference does not depend on the order of its terms. The sixteen blocks tile the result, so after the run the result
  array is `scores q k`; the arguments are not written.
-/
import proofs.«149935_j36859409334845_2_alg».proof.Proof.KernelEntry
import proofs.«149935_j36859409334845_2_alg».proof.Proof.Scores
import Idealize.ShloMosaic.Lib.StableHlo.Run
import Idealize.ShloMosaic.Lib.Pipeline.Value

noncomputable section

namespace Cert.KernelIdeal.Whole

open Cert.KernelIdeal Cert.KernelIdeal.Gen Cert.KernelIdeal.Block Cert.L1Scores
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

/-- The query window's array at (b, h, d, i) is the query argument at (b, i, h, d): the host transposed it. -/
theorem V_query_apply (c : Dev nD) (b : Fin 2) (h : Fin 8) (d : Fin 64) (i : Fin 512) :
    (V m c main_v0 : S2x8x64x512.Idx → Elt Ideal .f32) (ix4 b h d i)
      = (m ((c.tc : Thread nD τ).loc main_arg0) : S2x512x8x64.Idx → Elt Ideal .f32) (ix4 b i h d) := by
  have e : (V m c main_v0 : S2x8x64x512.Idx → Elt Ideal .f32)
      = transpose S2x8x64x512 [0, 2, 3, 1] (m ((c.tc : Thread nD τ).loc main_arg0)) transposes_S2x512x8x64_S2x8x64x512_0_2_3_1 := by
    dsimp only [Gen.V, Gen.hostOps0]; after_results
  rw [e]
  exact transpose_apply [0, 2, 3, 1] _ _ (ix4 b h d i) (ix4 b i h d) (fun a => match a with
    | ⟨0, _⟩ => rfl
    | ⟨1, _⟩ => rfl
    | ⟨2, _⟩ => rfl
    | ⟨3, _⟩ => rfl)

/-- The key window's array at (b, h, j, d) is the key argument at (b, j, h, d). -/
theorem V_key_apply (c : Dev nD) (b : Fin 2) (h : Fin 8) (j : Fin 512) (d : Fin 64) :
    (V m c main_v1 : S2x8x512x64.Idx → Elt Ideal .f32) (ix4 b h j d)
      = (m ((c.tc : Thread nD τ).loc main_arg1) : S2x512x8x64.Idx → Elt Ideal .f32) (ix4 b j h d) := by
  have e : (V m c main_v1 : S2x8x512x64.Idx → Elt Ideal .f32)
      = transpose S2x8x512x64 [0, 2, 1, 3] (m ((c.tc : Thread nD τ).loc main_arg1)) transposes_S2x512x8x64_S2x8x512x64_0_2_1_3 := by
    dsimp only [Gen.V, Gen.hostOps0]; after_results
  rw [e]
  exact transpose_apply [0, 2, 1, 3] _ _ (ix4 b h j d) (ix4 b j h d) (fun a => match a with
    | ⟨0, _⟩ => rfl
    | ⟨1, _⟩ => rfl
    | ⟨2, _⟩ => rfl
    | ⟨3, _⟩ => rfl)

/-! ## The three windows move together -/

/-- The printed index maps, decided over the sixteen points: every window's block index is (b, h, 0, 0) with the same
    batch b < 2 and head h < 8. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) < 2 ∧ win0_2.index t (1 : Fin 4) < 8
    ∧ win0_2.index t (2 : Fin 4) = 0 ∧ win0_2.index t (3 : Fin 4) = 0 :=
  (by decide +kernel : ∀ t : Fin grid0.N, _)

/-- Every (batch, head) is some point's. -/
theorem idx_onto : ∀ (b : Fin 2) (h : Fin 8), ∃ t : Fin cfg0.N, win0_2.index t = ![b.val, h.val, 0, 0] :=
  (by decide +kernel : ∀ (b : Fin 2) (h : Fin 8), ∃ t : Fin grid0.N, win0_2.index t = ![b.val, h.val, 0, 0])

/-! ## The input blocks at a point -/

/-- The query block at the point of (b, h), at (0, 0, d, i): the query argument at (b, i, h, d). -/
theorem queryBlock_apply (c : Dev nD) (t : Fin cfg0.N) (b : Fin 2) (h : Fin 8)
    (hb : b.val = win0_2.index t (0 : Fin 4)) (hh : h.val = win0_2.index t (1 : Fin 4)) (d : Fin 64) (i : Fin 512) :
    (iblk m c 0 t : Vec Ideal S1x1x64x512 .f32) (ix4 (0 : Fin 1) (0 : Fin 1) d i)
      = (m ((c.tc : Thread nD τ).loc main_arg0) : S2x512x8x64.Idx → Elt Ideal .f32) (ix4 b i h d) := by
  obtain ⟨e0, e1, e2, e3, -⟩ := idx_facts t
  unfold iblk
  rw [View.read_apply]
  show (V m c main_v0 : S2x8x64x512.Idx → Elt Ideal .f32) _ = _
  refine (congrArg (V m c main_v0 : S2x8x64x512.Idx → Elt Ideal .f32) ?_).trans (V_query_apply m c b h d i)
  funext a
  apply Fin.ext
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 64 + 1 * d.val = d.val; omega
  | ⟨3, _⟩ => show win0_0.index t (3 : Fin 4) * 512 + 1 * i.val = i.val; omega

/-- The key block at the point of (b, h), at (0, 0, j, d): the key argument at (b, j, h, d). -/
theorem keyBlock_apply (c : Dev nD) (t : Fin cfg0.N) (b : Fin 2) (h : Fin 8)
    (hb : b.val = win0_2.index t (0 : Fin 4)) (hh : h.val = win0_2.index t (1 : Fin 4)) (j : Fin 512) (d : Fin 64) :
    (iblk m c 1 t : Vec Ideal S1x1x512x64 .f32) (ix4 (0 : Fin 1) (0 : Fin 1) j d)
      = (m ((c.tc : Thread nD τ).loc main_arg1) : S2x512x8x64.Idx → Elt Ideal .f32) (ix4 b j h d) := by
  obtain ⟨-, -, -, -, e4, e5, e6, e7, -⟩ := idx_facts t
  unfold iblk
  rw [View.read_apply]
  show (V m c main_v1 : S2x8x512x64.Idx → Elt Ideal .f32) _ = _
  refine (congrArg (V m c main_v1 : S2x8x512x64.Idx → Elt Ideal .f32) ?_).trans (V_key_apply m c b h j d)
  funext a
  apply Fin.ext
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 512 + 1 * j.val = j.val; omega
  | ⟨3, _⟩ => show win0_1.index t (3 : Fin 4) * 64 + 1 * d.val = d.val; omega

/-! ## What a point writes back is its block of the scores -/

/-- Over ANY two loaded buffers that hold rows (b, h) of the transposed arguments: the stored block at (0, 0, j, i) is the
    score (b, h, j, i). The one law used is |x - y| = |y - x|. -/
theorem stored_eq_score (q k : (⟨4, ![2, 512, 8, 64]⟩ : Shape).Idx → EReal)
    (x0 : Vec Ideal S1x1x64x512 .f32) (x1 : Vec Ideal S1x1x512x64 .f32) (b : Fin 2) (h : Fin 8)
    (h0 : ∀ (d : Fin 64) (i : Fin 512), x0 (ix4 (0 : Fin 1) (0 : Fin 1) d i) = q (ix4 b i h d))
    (h1 : ∀ (j : Fin 512) (d : Fin 64), x1 (ix4 (0 : Fin 1) (0 : Fin 1) j d) = k (ix4 b j h d)) (j i : Fin 512) :
    stored x0 x1 (ix4 (0 : Fin 1) (0 : Fin 1) j i) = scores q k (ix4 b h j i) := by
  rw [stored_apply, scores_ix4]
  unfold score
  refine congrArg (FloatOps.mulf _) (congrArg (_ + ·) (Finset.sum_congr rfl fun d _ => ?_))
  unfold term
  rw [h1, h0]
  exact abs_sub_comm _ _

/-- The same at a block index y and an array index z given by their coordinates. -/
theorem stored_eq_scores_at (q k : (⟨4, ![2, 512, 8, 64]⟩ : Shape).Idx → EReal)
    (x0 : Vec Ideal S1x1x64x512 .f32) (x1 : Vec Ideal S1x1x512x64 .f32) (b : Fin 2) (h : Fin 8)
    (h0 : ∀ (d : Fin 64) (i : Fin 512), x0 (ix4 (0 : Fin 1) (0 : Fin 1) d i) = q (ix4 b i h d))
    (h1 : ∀ (j : Fin 512) (d : Fin 64), x1 (ix4 (0 : Fin 1) (0 : Fin 1) j d) = k (ix4 b j h d))
    (y : S1x1x512x512.Idx) (z : S2x8x512x512.Idx)
    (hz0 : (z 0).val = b.val) (hz1 : (z 1).val = h.val) (hz2 : (z 2).val = (y 2).val) (hz3 : (z 3).val = (y 3).val) :
    stored x0 x1 y = scores q k z := by
  have hy0 : (y 0).val < 1 := (y 0).isLt
  have hy1 : (y 1).val < 1 := (y 1).isLt
  have hy : y = ix4 (0 : Fin 1) (0 : Fin 1) (⟨(y 2).val, (y 2).isLt⟩ : Fin 512) (⟨(y 3).val, (y 3).isLt⟩ : Fin 512) := by
    funext a
    apply Fin.ext
    match a with
    | ⟨0, _⟩ => show (y 0).val = 0; omega
    | ⟨1, _⟩ => show (y 1).val = 0; omega
    | ⟨2, _⟩ => rfl
    | ⟨3, _⟩ => rfl
  have hz : z = ix4 b h (⟨(y 2).val, (y 2).isLt⟩ : Fin 512) (⟨(y 3).val, (y 3).isLt⟩ : Fin 512) := by
    funext a
    apply Fin.ext
    match a with
    | ⟨0, _⟩ => exact hz0
    | ⟨1, _⟩ => exact hz1
    | ⟨2, _⟩ => exact hz2
    | ⟨3, _⟩ => exact hz3
  exact (congrArg (stored x0 x1) hy).trans ((stored_eq_score q k x0 x1 b h h0 h1 _ _).trans (congrArg (scores q k) hz.symm))

/-- WHAT POINT t WRITES BACK is block t of the scores of the two arguments. -/
theorem flushed_eq (c : Dev nD) (t : Fin cfg0.N) :
    (dats m 0 c).flushed 2 t = ((cfg0.win 2).blk t).view.read (Elt Ideal)
      (scores (m ((c.tc : Thread nD τ).loc main_arg0)) (m ((c.tc : Thread nD τ).loc main_arg1))) := by
  obtain ⟨-, -, -, -, -, -, -, -, e8, e9, e10, e11⟩ := idx_facts t
  show (cfg0.win 2).cut (grid0.coords t) ((dats m 0 c).after 2 t) = _
  rw [after0_2, out_eq_stored]
  funext y
  rw [View.read_apply]
  show stored (iblk m c 0 t) (iblk m c 1 t) y = _
  have hy0 : (y 0).val < 1 := (y 0).isLt
  have hy1 : (y 1).val < 1 := (y 1).isLt
  refine stored_eq_scores_at _ _ (iblk m c 0 t) (iblk m c 1 t) ⟨win0_2.index t (0 : Fin 4), e8⟩ ⟨win0_2.index t (1 : Fin 4), e9⟩
    (fun d i => queryBlock_apply m c t _ _ rfl rfl d i) (fun j d => keyBlock_apply m c t _ _ rfl rfl j d) y _ ?_ ?_ ?_ ?_
  · show win0_2.index t (0 : Fin 4) * 1 + 1 * (y 0).val = win0_2.index t (0 : Fin 4); omega
  · show win0_2.index t (1 : Fin 4) * 1 + 1 * (y 1).val = win0_2.index t (1 : Fin 4); omega
  · show win0_2.index t (2 : Fin 4) * 512 + 1 * (y 2).val = (y 2).val; omega
  · show win0_2.index t (3 : Fin 4) * 512 + 1 * (y 3).val = (y 3).val; omega

/-! ## The blocks tile the result -/

/-- An index of the result is in point t's block iff each coordinate is in the block's range on its axis. -/
theorem mem_blk (t : Fin cfg0.N) (i : S2x8x512x512.Idx) :
    i ∈ ((cfg0.win 2).blk t).view.set ↔ ∀ a : Fin 4, win0_2.index t a * S1x1x512x512.size a ≤ (i a).val
      ∧ (i a).val < win0_2.index t a * S1x1x512x512.size a + S1x1x512x512.size a := by
  show i ∈ ((View.whole main_v2).slice (win0_2.rect t)).set ↔ _
  rw [View.set_slice_whole, Rect.mem_set_unit]
  exact Iff.rfl

/-- Every index (b, h, j, i) of the result is in the block of the point of (b, h). -/
theorem cover (i : S2x8x512x512.Idx) :
    ∃ t : Fin cfg0.N, (cfg0.win 2).flush t = true ∧ i ∈ ((cfg0.win 2).blk t).view.set := by
  obtain ⟨t, ht⟩ := idx_onto ⟨(i 0).val, (i 0).isLt⟩ ⟨(i 1).val, (i 1).isLt⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  have hi2 : (i 2).val < 512 := (i 2).isLt
  have hi3 : (i 3).val < 512 := (i 3).isLt
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE RESULT ARRAY after the run: the scores of the two arguments. -/
theorem final (c : Dev nD) : (dats m 0 c).arrAt 2 cfg0.N
    = scores (m ((c.tc : Thread nD τ).loc main_arg0)) (m ((c.tc : Thread nD τ).loc main_arg1)) :=
  (dats m 0 c).arrAt_eq_of_cover 2 _ (fun t _ => flushed_eq m c t) cover

/-! ## The run -/

/-- Every weakly fair execution of the kernel's program terminates with the result array at the scores of the
    arguments and the arguments unchanged: the frame run, its result array read by `final`. -/
theorem run : θ_run defs (onTc (τ := τ) (main (F := Ideal))) ⟨m, fun _ => 0, ρ⟩ fun r => ∀ c : Dev nD,
      r.2.mem ((c.tc : Thread nD τ).loc main_v2)
        = scores (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Whole

end
-- ==== Proof.Reference.lean ====
/-
  The reference computes the scores.
  Its run ends at transpose(scale · reduce_add(|broadcast q - broadcast k|, axis 4, from 0)). Read at an index (b, h, j, i), one
  operation at a time: the transpose reads the product at (b, j, i, h); the product is the scale times the reduction there;
  the reduction is zero plus the sum over d of the absolute difference at (b, j, i, h, d); and at that index the two
  broadcasts read q at (b, i, h, d) — the query position is the third axis of the broadcast shape — and k at (b, j, h, d).
  That is `scores q k` term by term, the host's absolute value being the kernel's.
-/
import proofs.«149935_j36859409334845_2_alg».proof.Proof.Gen.ReferenceIdeal.Read
import proofs.«149935_j36859409334845_2_alg».proof.Proof.Scores

noncomputable section

namespace Cert.ReferenceIdeal.RefValue

open Cert.ReferenceIdeal Cert.ReferenceIdeal.Read Idealize.ShloMosaic Idealize.ShloMosaic.ValueIdx Cert.L1Scores

/-- Entry (b, h, j, i) of the result reads the query array at (b, i, h, d), through the transpose, the reduction's index and
    the two broadcasts. -/
theorem qIdx (b : Fin 2) (h : Fin 8) (j i : Fin 512) (d : Fin 64) :
    idx_main_v0 (idx_main_v2 (idx_main_v6 (idx_main_v9 (ix4 b h j i)) d)) = ix4 b i h d :=
  funext fun a => Fin.ext (by match a with | ⟨0, _⟩ => rfl | ⟨1, _⟩ => rfl | ⟨2, _⟩ => rfl | ⟨3, _⟩ => rfl)

/-- … and the key array at (b, j, h, d). -/
theorem kIdx (b : Fin 2) (h : Fin 8) (j i : Fin 512) (d : Fin 64) :
    idx_main_v1 (idx_main_v3 (idx_main_v6 (idx_main_v9 (ix4 b h j i)) d)) = ix4 b j h d :=
  funext fun a => Fin.ext (by match a with | ⟨0, _⟩ => rfl | ⟨1, _⟩ => rfl | ⟨2, _⟩ => rfl | ⟨3, _⟩ => rfl)

/-- The reference's result, as a function of its two arguments, is the array of scores. -/
theorem ref_eq_scores (x0 x1 : (⟨S2x512x8x64, .f32⟩ : BufTy).Contents (Elt Ideal)) :
    val_main_v9 (F := Ideal) x0 x1 = scores x0 x1 := by
  funext x
  obtain ⟨b, h, j, i, rfl⟩ : ∃ (b : Fin 2) (h : Fin 8) (j i : Fin 512), x = ix4 b h j i := ⟨x 0, x 1, x 2, x 3, eq_ix4 x⟩
  rw [scores_ix4, val_main_v9_apply, val_main_v8_apply, val_main_v7_apply, val_main_cst_0_apply, val_main_v6_apply,
    val_main_cst_apply]
  unfold score
  refine congrArg (FloatOps.mulf _) (congrArg (_ + ·) (Finset.sum_congr rfl fun d _ => ?_))
  rw [val_main_v5_apply, val_main_v4_apply, val_main_v2_apply, val_main_v0_apply, val_main_v3_apply, val_main_v1_apply,
    qIdx, kIdx]
  rfl

end Cert.ReferenceIdeal.RefValue

end
-- ==== Proof.lean ====
/-
  L1 attention scores: the kernel against its jnp reference, over the extended reals.
      attn[b, h, j, i] = -(1/8) · Σ_{d < 64} |q[b, i, h, d] - k[b, j, h, d]|,   q, k : [2, 512, 8, 64],  attn : [2, 8, 512, 512].
  The kernel's program transposes q to [2, 8, 64, 512] and k to [2, 8, 512, 64] on the host and launches one grid point
  per (batch, head); the body, its loop over the width unrolled, accumulates |k[j, d] - q[d, i]| over d from zero and scales
  the sum by -(1/8) = -1/sqrt 64, an exact float. The reference broadcasts both arguments to [2, 512, 512, 8, 64], takes
  |q - k|, sums over the last axis from zero, scales by the same -(1/8) and transposes. Both are the one function
  `L1Scores.scores q k` of the arguments, index by index:
    • the kernel's result array (Proof/KernelArray.lean, over the generated frame run): each point's block is the scores'
      block, and the sixteen blocks tile the result;
    • the reference's result (Proof/Reference.lean, over the generated run of its operations and their reads at an index).
  The two differ in the order of the subtraction only, and |x - y| = |y - x| on all of the extended reals
  (Proof/AbsDiffSum.lean); the order of the accumulation does not matter there either. Neither step needs the inputs
  finite, so the precondition is not opened. The ideal pass rewrote nothing: the idealized kernel is the kernel's own text
  read at the extended reals, and nothing is owed for it. The three frames are the generated ones (the reference's, which
  has no kernel, is its generated run with the result dropped).
-/
import proofs.«149935_j36859409334845_2_alg».proof.Defs
import proofs.«149935_j36859409334845_2_alg».proof.Proof.Gen.Kernel
import proofs.«149935_j36859409334845_2_alg».proof.Proof.Gen.Kernel.Frame
import proofs.«149935_j36859409334845_2_alg».proof.Proof.Gen.KernelIdeal
import proofs.«149935_j36859409334845_2_alg».proof.Proof.Gen.KernelIdeal.Frame
import proofs.«149935_j36859409334845_2_alg».proof.Proof.Gen.ReferenceIdeal
import proofs.«149935_j36859409334845_2_alg».proof.Proof.Gen.Pre_finite_inputs
import proofs.«149935_j36859409334845_2_alg».proof.Proof.Gen.ReferenceIdeal.Run
import proofs.«149935_j36859409334845_2_alg».proof.Proof.Gen.ReferenceIdeal.Read
import proofs.«149935_j36859409334845_2_alg».proof.Proof.KernelArray
import proofs.«149935_j36859409334845_2_alg».proof.Proof.Reference
import Idealize.ShloMosaic.Adequacy
import Idealize.ShloMosaic.Init

noncomputable section

namespace Cert.Proof

open Idealize.ShloMosaic Idealize.ShloMosaic.TcCoe Idealize.SL.Sem

/-- The kernel's program as printed runs and leaves its arguments as they were. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on q and k, both programs end with the array of scores of q and k. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq_scores, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
